-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096 : Shape := ⟨1, ![4096]⟩
abbrev S4096x4096 : Shape := ⟨2, ![4096, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S512x4096 .f32) (main_arg1 : FVec F S4096 .f32) (main_arg2 : FVec F S4096x4096 .f32) (main_arg3 : FVec F S4096x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S512x4096 : Shape := ⟨2, ![512, 4096]⟩
abbrev S4096 : Shape := ⟨1, ![4096]⟩
abbrev S4096x4096 : Shape := ⟨2, ![4096, 4096]⟩
abbrev S16x1x512 : Shape := ⟨3, ![16, 1, 512]⟩
abbrev S512x256 : Shape := ⟨2, ![512, 256]⟩
abbrev S256 : Shape := ⟨1, ![256]⟩
abbrev S4096x256 : Shape := ⟨2, ![4096, 256]⟩
abbrev S1x1x512 : Shape := ⟨3, ![1, 1, 512]⟩
abbrev S1x256 : Shape := ⟨2, ![1, 256]⟩
abbrev S512 : Shape := ⟨1, ![512]⟩
abbrev S1x512 : Shape := ⟨2, ![1, 512]⟩
abbrev S_ : Shape := ⟨0, ![]⟩

abbrev nBuf : Space → Nat
  | .hbm => 8
  | .vmem => 11
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S512x4096, .bf16⟩
  | .hbm, ⟨5, _⟩ => ⟨S16x1x512, .f32⟩
  | .hbm, ⟨6, _⟩ => ⟨S_, .f32⟩
  | .hbm, ⟨7, _⟩ => ⟨S512, .f32⟩
  | .local _ .vmem, ⟨0, _⟩ => ⟨S512x4096, .bf16⟩
  | .local _ .vmem, ⟨1, _⟩ => ⟨S512x256, .f32⟩
  | .local _ .vmem, ⟨2, _⟩ => ⟨S512x256, .f32⟩
  | .local _ .vmem, ⟨3, _⟩ => ⟨S256, .f32⟩
  | .local _ .vmem, ⟨4, _⟩ => ⟨S256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S1x1x512, .f32⟩
  | .local _ .vmem, ⟨10, _⟩ => ⟨S1x1x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  reduces_S512x256_S512 : S512x256.Reduces [1] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  reducesTo_S16x1x512_S512_d0_1 : S16x1x512.ReducesTo [0, 1] S512
  h_S_ : 0 < S_.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x4096.size a
  hwx0_1 : ∀ i : grid0.Coords, EltTy.bits .f32 = 32 ∨ (Rect.block (s := S512x4096) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x4096.size a
  hwx0_3 : ∀ i : grid0.Coords, EltTy.bits .f32 = 32 ∨ (Rect.block (s := S4096x4096) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .f32 = 32 ∨ (Rect.block (s := S4096x4096) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S16x1x512.size a
  hwx0_5 : ∀ i : grid0.Coords, EltTy.bits .f32 = 32 ∨ (Rect.block (s := S16x1x512) S1x1x512.size (cc0_transform_5 i) (hinb0_5 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x4096 : Shape := ⟨2, ![512, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S512 : Shape := ⟨1, ![512]⟩

abbrev nBuf : Space → Nat
  | .hbm => 13
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S_, .f32⟩
  | .hbm, ⟨12, _⟩ => ⟨S512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  reducesTo_S512x4096_S512_d1 : S512x4096.ReducesTo [1] S512
  h_S_ : 0 < S_.numel
  dot_S512x4096_S4096x4096_S512x4096_1_0_0_1_n_n_wf : DotDims.WF S512x4096 S4096x4096 S512x4096 [1] [0] [0] [1] [] []

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf

class Facts : Prop extends Facts₀ where

variable [Facts]
-- ==== Proof.Energy.lean ====
/-
  The Ising log-energy as a function of the spins, the fields and the masked couplings, over the extended reals.

  For a batch row `b` and a lattice site `n` the site's contribution is
      (∑ₖ x[b,k] · (J[k,n] · M[k,n])) · x[b,n]  +  x[b,n] · u[n],
  the pair term (the row's spins contracted against column `n` of the masked coupling matrix, times the site's own
  spin) plus the field term. The energy of row `b` is the sum of the contributions of all 4096 sites. The sites are
  also cut into 16 consecutive tiles of 256; the partial energy of tile `t` is the sum over the tile's sites, and the
  energy is the sum of the 16 partial energies: a sum over `Fin 4096` regrouped along the bijection
  (t, l) ↦ 256·t + l, which needs only that addition is commutative and associative — true of the extended reals,
  infinities included, so no finiteness of the inputs is used.
-/
import Idealize.ShloMosaic.PureOps.Ideal
import Idealize.ShloMosaic.Lib.ValueIdx

noncomputable section

open Idealize.ShloMosaic Idealize.ShloMosaic.ValueIdx
open scoped BigOperators

namespace Cert.Ising

/-- The spins: 512 batch rows of 4096 sites. -/
abbrev SpinShape : Shape := ⟨2, ![512, 4096]⟩
/-- The fields: one per site. -/
abbrev FieldShape : Shape := ⟨1, ![4096]⟩
/-- The couplings and their mask: site by site. -/
abbrev PairShape : Shape := ⟨2, ![4096, 4096]⟩
/-- The partial energies: 16 tiles, a unit axis, 512 batch rows. -/
abbrev PartShape : Shape := ⟨3, ![16, 1, 512]⟩
/-- The energies: one per batch row. -/
abbrev EnergyShape : Shape := ⟨1, ![512]⟩

/-- Row `b`'s spins contracted against column `n` of the masked couplings. -/
def pairSum (x : SpinShape.Idx → EReal) (J M : PairShape.Idx → EReal) (b : Fin 512) (n : Fin 4096) : EReal :=
  ∑ k : Fin 4096, x (ix2 b k) * (J (ix2 k n) * M (ix2 k n))

/-- Site `n`'s contribution to row `b`'s energy: the pair term plus the field term. -/
def site (x : SpinShape.Idx → EReal) (u : FieldShape.Idx → EReal) (J M : PairShape.Idx → EReal) (b : Fin 512)
    (n : Fin 4096) : EReal :=
  pairSum x J M b n * x (ix2 b n) + x (ix2 b n) * u (ix1 n)

/-- Site `l` of tile `t`. -/
def tileSite (t : Fin 16) (l : Fin 256) : Fin 4096 := ⟨t.val * 256 + l.val, by omega⟩

/-- Row `b`'s partial energy over tile `t`. -/
def tileEnergy (x : SpinShape.Idx → EReal) (u : FieldShape.Idx → EReal) (J M : PairShape.Idx → EReal) (t : Fin 16)
    (b : Fin 512) : EReal :=
  ∑ l : Fin 256, site x u J M b (tileSite t l)

/-- Row `b`'s energy. -/
def rowEnergy (x : SpinShape.Idx → EReal) (u : FieldShape.Idx → EReal) (J M : PairShape.Idx → EReal) (b : Fin 512) :
    EReal :=
  ∑ n : Fin 4096, site x u J M b n

/-- The array of partial energies. -/
def partials (x : SpinShape.Idx → EReal) (u : FieldShape.Idx → EReal) (J M : PairShape.Idx → EReal) :
    PartShape.Idx → EReal :=
  fun i => tileEnergy x u J M ⟨(i 0).val, (i 0).isLt⟩ ⟨(i 2).val, (i 2).isLt⟩

/-- The array of energies. -/
def energy (x : SpinShape.Idx → EReal) (u : FieldShape.Idx → EReal) (J M : PairShape.Idx → EReal) :
    EnergyShape.Idx → EReal :=
  fun i => rowEnergy x u J M ⟨(i 0).val, (i 0).isLt⟩

/-- A tile and a site inside it name a site: the 16 tiles of 256 partition the 4096 sites. -/
def tileEquiv : Fin 16 × Fin 256 ≃ Fin 4096 where
  toFun p := tileSite p.1 p.2
  invFun n := (⟨n.val / 256, by omega⟩, ⟨n.val % 256, by omega⟩)
  left_inv p := by
    obtain ⟨t, l⟩ := p
    refine Prod.ext (Fin.ext ?_) (Fin.ext ?_)
    · show (t.val * 256 + l.val) / 256 = t.val
      have := l.isLt; omega
    · show (t.val * 256 + l.val) % 256 = l.val
      have := l.isLt; omega
  right_inv n := Fin.ext (by
    show n.val / 256 * 256 + n.val % 256 = n.val
    omega)

/-- A sum over the sites is the sum over the tiles of the sums over each tile's sites, in any commutative monoid. -/
theorem sum_tiles {A : Type*} [AddCommMonoid A] (f : Fin 4096 → A) :
    ∑ t : Fin 16, ∑ l : Fin 256, f (tileSite t l) = ∑ n : Fin 4096, f n := by
  rw [← Fintype.sum_prod_type' (fun t l => f (tileSite t l))]
  exact Fintype.sum_equiv tileEquiv _ _ (fun _ => rfl)

/-- The energy is the sum of the 16 partial energies. -/
theorem sum_tileEnergy (x : SpinShape.Idx → EReal) (u : FieldShape.Idx → EReal) (J M : PairShape.Idx → EReal)
    (b : Fin 512) : ∑ t : Fin 16, tileEnergy x u J M t b = rowEnergy x u J M b :=
  sum_tiles (fun n => site x u J M b n)

end Cert.Ising

end
-- ==== Proof.RefEnergy.lean ====
/-
  The reference computes the energy. Its last stage is a row sum, from zero, of the field term plus the pair term of every
  site: the site's contribution with its two summands in the other order. Read index by index: the row sum's operand at
  (b, n) is x[b,n] · u[n] + (∑ₖ x[b,k] · (J[k,n] · M[k,n])) · x[b,n] — the broadcasts of the fields read `u` at the
  site's column, the contraction reads row `b` of the spins against column `n` of the masked couplings.
-/
import proofs.«104117_j3470333575731_2_alg».proof.Proof.Gen.ReferenceIdeal.Read
import proofs.«104117_j3470333575731_2_alg».proof.Proof.Energy

noncomputable section

open Idealize.ShloMosaic Idealize.ShloMosaic.ValueIdx
open scoped BigOperators

namespace Cert.Ising.Reference

open Cert.ReferenceIdeal Cert.ReferenceIdeal.Read Cert.Ising

/-- The row sum's operand index: row `b`, site `n`. -/
theorem row_site (b : Fin 512) (n : Fin 4096) : idx_main_v7 (ix1 b) n = ix2 b n :=
  funext fun a => Fin.ext (by match a with | ⟨0, _⟩ => rfl | ⟨1, _⟩ => rfl)

/-- The two broadcasts of the fields read the site's own field. -/
theorem field_site (b : Fin 512) (n : Fin 4096) : idx_main_v1 (idx_main_v2 (ix2 b n)) = ix1 n :=
  funext fun a => Fin.ext (by match a with | ⟨0, _⟩ => rfl)

/-- The contraction's left operand: row `b`, site `k`. -/
theorem contr_left (b : Fin 512) (n k : Fin 4096) : lidx_main_v4 (ix2 b n) k = ix2 b k :=
  funext fun a => Fin.ext (by match a with | ⟨0, _⟩ => rfl | ⟨1, _⟩ => rfl)

/-- The contraction's right operand: the coupling of site `k` with site `n`. -/
theorem contr_right (b : Fin 512) (n k : Fin 4096) : ridx_main_v4 (ix2 b n) k = ix2 k n :=
  funext fun a => Fin.ext (by match a with | ⟨0, _⟩ => rfl | ⟨1, _⟩ => rfl)

/-- The reference's result is the energy. -/
theorem result_eq (x : SpinShape.Idx → EReal) (u : FieldShape.Idx → EReal) (J M : PairShape.Idx → EReal) :
    val_main_v7 (F := Ideal) x u J M = energy x u J M := by
  funext i
  obtain ⟨b, rfl⟩ : ∃ b : Fin 512, i = ix1 b := ⟨i 0, eq_ix1 i⟩
  rw [val_main_v7_apply, val_main_cst_apply]
  show FloatOps.ofBits (F := Ideal) .f32 0x00000000#32 + _ = ∑ n : Fin 4096, site x u J M b n
  rw [Ideal.ofBits_def, Ideal.ofBits_zero_f32, zero_add]
  refine Finset.sum_congr rfl fun n _ => ?_
  rw [row_site, val_main_v6_apply, val_main_v3_apply, val_main_v5_apply, val_main_v2_apply, val_main_v1_apply,
    val_main_v4_apply, field_site, Ideal.addf_def, Ideal.mulf_def, Ideal.mulf_def, add_comm]
  unfold site pairSum
  refine congrArg (fun s => s * x (ix2 b n) + x (ix2 b n) * u (ix1 n)) (Finset.sum_congr rfl fun k _ => ?_)
  rw [contr_left, contr_right, val_main_v0_apply, Ideal.mulf_def]

end Cert.Ising.Reference

end
-- ==== Proof.TileBody.lean ====
/-
  What the kernel body stores for one tile of 256 sites, read at an index. From its five loaded blocks — the tile's
  columns of the couplings `cj` and of the mask `cm`, all the spins `xs`, the tile's columns of the spins `xt` and the
  tile's fields `ut` — the body forms, at batch row `b` and tile site `l`,
      (∑ₖ xs[b,k] · (cj[k,l] · cm[k,l])) · xt[b,l]  +  xt[b,l] · ut[l]
  (a matrix product into a zero accumulator is the plain sum of products; the change of float format of its operands is
  the identity on the extended reals; the fields are a row broadcast over the batch), sums it over the 256 tile sites
  (a lane reduction from zero is the plain sum), and stores the 512 row sums behind two unit axes.
-/
import proofs.«104117_j3470333575731_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.Ising.Tile

open Cert.KernelIdeal Cert.KernelIdeal.Gen

/-- The body's contraction: spins [512, 4096] against a tile's masked couplings [4096, 256]. -/
abbrev contraction := dot_S512x4096_S4096x256_S512x256_1_0_0_1_n_n

theorem left_row (i : S512x256.Idx) (q : contraction.contr.Idx) : (contraction.lhsIdx i q 0).val = (i 0).val := by
  unfold DotDims.lhsIdx
  rw [dif_neg (show ¬(0 : Fin S512x4096.rank) ∈ contraction.lhsBatch by decide),
    dif_pos (show (0 : Fin S512x4096.rank) ∈ contraction.lhsNonContracting by decide)]
  rfl
theorem left_site (i : S512x256.Idx) (q : contraction.contr.Idx) :
    (contraction.lhsIdx i q 1).val = (q ⟨0, by decide⟩).val :=
  contraction.lhsIdx_val_of_single rfl i q
theorem right_site (i : S512x256.Idx) (q : contraction.contr.Idx) :
    (contraction.rhsIdx i q 0).val = (q ⟨0, by decide⟩).val :=
  contraction.rhsIdx_val_of_single rfl i q
theorem right_col (i : S512x256.Idx) (q : contraction.contr.Idx) : (contraction.rhsIdx i q 1).val = (i 1).val := by
  unfold DotDims.rhsIdx
  rw [dif_neg (show ¬(1 : Fin S4096x256.rank) ∈ contraction.rhsBatch by decide),
    dif_pos (show (1 : Fin S4096x256.rank) ∈ contraction.rhsNonContracting by decide)]
  rfl

/-- The matrix product into the zero accumulator, at row `b` and tile site `l`: the sum over the 4096 sites `k` of
    the left operand at (b, k) times the right at (k, l). -/
theorem product_apply (lhs : FVec Ideal S512x4096 .bf16) (rhs : FVec Ideal S4096x256 .bf16) (b : Fin 512) (l : Fin 256) :
    matmul contraction none lhs rhs (constant (F := Ideal) S512x256 .f32 0x00000000#32) (ix2 b l)
      = ∑ k : Fin 4096, lhs (ix2 b k) * rhs (ix2 k l) := by
  simp only [matmul]
  rw [Ideal.matmul_constant_zero_apply, ← Equiv.sum_comp (contrEquiv1 contraction 4096 rfl rfl).symm]
  refine Finset.sum_congr rfl fun k _ => ?_
  have hk := contrEquiv1_symm_val contraction 4096 rfl rfl k
  have el : contraction.lhsIdx (ix2 b l) ((contrEquiv1 contraction 4096 rfl rfl).symm k) = ix2 b k :=
    funext fun a => Fin.ext (by
      match a with
      | ⟨0, _⟩ => exact left_row _ _
      | ⟨1, _⟩ => exact (left_site _ _).trans hk)
  have er : contraction.rhsIdx (ix2 b l) ((contrEquiv1 contraction 4096 rfl rfl).symm k) = ix2 k l :=
    funext fun a => Fin.ext (by
      match a with
      | ⟨0, _⟩ => exact (right_site _ _).trans hk
      | ⟨1, _⟩ => exact right_col _ _)
  rw [el, er]

/-- The lane reduction from zero, at row `b`: the sum over the 256 tile sites. -/
theorem laneSum_apply (src : FVec Ideal S512x256 .f32) (b : Fin 512) :
    multiReduction .add [1] S512 src 0x00000000#32 reduces_S512x256_S512 (.inl rfl) rfl (ix1 b)
      = ∑ l : Fin 256, src (ix2 b l) := by
  refine (Ideal.multiReduction_add_single src 0x00000000#32 reduces_S512x256_S512 (.inl rfl) rfl (ix1 b)).trans ?_
  refine Finset.sum_congr rfl fun l _ => congrArg src ?_
  exact funext fun a => Fin.ext (by match a with | ⟨0, _⟩ => rfl | ⟨1, _⟩ => rfl)

/-- The fields, given a unit row axis and broadcast over the batch, read the tile site's field at every row. -/
theorem fieldRows_apply (ut : FVec Ideal S256 .f32) (b : Fin 512) (l : Fin 256) :
    broadcastTo S512x256 (shapeCast S1x256 ut shapeCasts_S256_S1x256) broadcasts_S1x256_S512x256 (ix2 b l) = ut (ix1 l) :=
  (broadcastTo_1b_ab_apply _ _ b l).trans (shapeCast_a_1a_apply _ _ 0 l)

/-- The stored value at batch row `b` (the two leading coordinates range over unit axes). -/
theorem stored_apply (cj cm : Vec Ideal S4096x256 .f32) (xs : Vec Ideal S512x4096 .bf16) (xt : Vec Ideal S512x256 .f32)
    (ut : Vec Ideal S256 .f32) (z0 z1 : Fin 1) (b : Fin 512) :
    k0_pay1 (F := Ideal) cj cm xs xt ut (ix3 z0 z1 b)
      = ∑ l : Fin 256, ((∑ k : Fin 4096, xs (ix2 b k) * (cj (ix2 k l) * cm (ix2 k l))) * xt (ix2 b l)
          + xt (ix2 b l) * ut (ix1 l)) := by
  unfold k0_pay1
  refine (shapeCast_ab_1ab_apply _ _ z0 z1 b).trans ?_
  refine (shapeCast_a_1a_apply _ _ z1 b).trans ?_
  refine (laneSum_apply _ b).trans ?_
  refine Finset.sum_congr rfl fun l _ => ?_
  show matmul contraction none (shapeCast S512x4096 xs _) (truncf .bf16 (mulf cj cm) _)
        (constant (F := Ideal) S512x256 .f32 0x00000000#32) (ix2 b l) * xt (ix2 b l)
      + xt (ix2 b l) * broadcastTo S512x256 (shapeCast S1x256 ut _) _ (ix2 b l) = _
  rw [product_apply, fieldRows_apply, shapeCast_self]
  rfl

end Cert.Ising.Tile

end
-- ==== Proof.TileArray.lean ====
/-
  The array of partial energies after the kernel's grid has run. Grid point `t` works on tile `t`: it is handed all the
  spins (the argument, cast on the host to a narrower float format — the identity on the extended reals), columns
  256·t … 256·t + 255 of the spins, of the couplings and of the mask, and entries 256·t … of the fields, and writes back
  row `t` of the [16, 1, 512] array. So what it writes back is row `t` of the array of partial energies, and since the
  16 rows tile the array, the array ends holding the partial energies.
-/
import proofs.«104117_j3470333575731_2_alg».proof.Proof.Gen.KernelIdeal.Frame
import proofs.«104117_j3470333575731_2_alg».proof.Proof.Energy
import proofs.«104117_j3470333575731_2_alg».proof.Proof.TileBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.Ising.Kernel

open Cert.KernelIdeal Cert.KernelIdeal.Gen Cert.Ising

variable (m : (ℓ : Loc nD τ sig) → Buf (Elt Ideal) ℓ) (ρ : Dev nD → PrngReg)

/-- The four argument arrays on core `c`, as launched. -/
abbrev spins (c : Dev nD) : SpinShape.Idx → EReal := m ((c : Thread nD τ).loc main_arg0)
abbrev fields (c : Dev nD) : FieldShape.Idx → EReal := m ((c : Thread nD τ).loc main_arg1)
abbrev couplings (c : Dev nD) : PairShape.Idx → EReal := m ((c : Thread nD τ).loc main_arg2)
abbrev mask (c : Dev nD) : PairShape.Idx → EReal := m ((c : Thread nD τ).loc main_arg3)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The tile a grid point works on. -/
def tileOf (t : Fin cfg0.N) : Fin 16 := Fin.cast N_0 t

/-- The block each window hands grid point `t`: the spins whole; column block `t` of the spins, the couplings and the
    mask; block `t` of the fields; row `t` of the output. -/
theorem block_index : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 1) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 3) = t.val ∧ win0_5.index t (1 : Fin 3) = 0 ∧ win0_5.index t (2 : Fin 3) = 0 :=
  (by decide +kernel : ∀ t : Fin grid0.N, _)

/-- The host's cast of the spins, as the region finds it, is the spins. -/
theorem cast_spins (c : Dev nD) : (V m c main_v0 : S512x4096.Idx → EReal) = spins m c := by
  show StableHlo.after hostOps0 (fun b => m (c, b)) (Proc.devRef .tc main_v0) = _
  after_results
  rfl

/-- Window 0's block is all the spins. -/
theorem allSpins_apply (c : Dev nD) (t : Fin cfg0.N) (b : Fin 512) (k : Fin 4096) :
    (iblk m c 0 t : Vec Ideal S512x4096 .bf16) (ix2 b k) = spins m c (ix2 b k) := by
  obtain ⟨e0, e1, -⟩ := block_index t
  unfold iblk
  rw [View.read_apply]
  show (V m c main_v0 : S512x4096.Idx → EReal) _ = _
  rw [cast_spins]
  refine congrArg (spins m c) (funext fun a => Fin.ext ?_)
  match a with
  | ⟨0, _⟩ => show win0_0.index t (0 : Fin 2) * 512 + 1 * b.val = b.val; omega
  | ⟨1, _⟩ => show win0_0.index t (1 : Fin 2) * 4096 + 1 * k.val = k.val; omega

/-- Window 1's block is the tile's columns of the spins. -/
theorem tileSpins_apply (c : Dev nD) (t : Fin cfg0.N) (b : Fin 512) (l : Fin 256) :
    (iblk m c 1 t : Vec Ideal S512x256 .f32) (ix2 b l) = spins m c (ix2 b (tileSite (tileOf t) l)) := by
  obtain ⟨-, -, e0, e1, -⟩ := block_index t
  unfold iblk
  rw [View.read_apply]
  show V m c main_arg0 _ = _
  rw [V_main_arg0]
  refine congrArg (spins m c) (funext fun a => Fin.ext ?_)
  match a with
  | ⟨0, _⟩ => show win0_1.index t (0 : Fin 2) * 512 + 1 * b.val = b.val; omega
  | ⟨1, _⟩ => show win0_1.index t (1 : Fin 2) * 256 + 1 * l.val = t.val * 256 + l.val; omega

/-- Window 2's block is the tile's fields. -/
theorem tileFields_apply (c : Dev nD) (t : Fin cfg0.N) (l : Fin 256) :
    (iblk m c 2 t : Vec Ideal S256 .f32) (ix1 l) = fields m c (ix1 (tileSite (tileOf t) l)) := by
  obtain ⟨-, -, -, -, e0, -⟩ := block_index t
  unfold iblk
  rw [View.read_apply]
  show V m c main_arg1 _ = _
  rw [V_main_arg1]
  refine congrArg (fields m c) (funext fun a => Fin.ext ?_)
  match a with
  | ⟨0, _⟩ => show win0_2.index t (0 : Fin 1) * 256 + 1 * l.val = t.val * 256 + l.val; omega

/-- Window 3's block is the tile's columns of the couplings. -/
theorem tileCouplings_apply (c : Dev nD) (t : Fin cfg0.N) (k : Fin 4096) (l : Fin 256) :
    (iblk m c 3 t : Vec Ideal S4096x256 .f32) (ix2 k l) = couplings m c (ix2 k (tileSite (tileOf t) l)) := by
  obtain ⟨-, -, -, -, -, e0, e1, -⟩ := block_index t
  unfold iblk
  rw [View.read_apply]
  show V m c main_arg2 _ = _
  rw [V_main_arg2]
  refine congrArg (couplings m c) (funext fun a => Fin.ext ?_)
  match a with
  | ⟨0, _⟩ => show win0_3.index t (0 : Fin 2) * 4096 + 1 * k.val = k.val; omega
  | ⟨1, _⟩ => show win0_3.index t (1 : Fin 2) * 256 + 1 * l.val = t.val * 256 + l.val; omega

/-- Window 4's block is the tile's columns of the mask. -/
theorem tileMask_apply (c : Dev nD) (t : Fin cfg0.N) (k : Fin 4096) (l : Fin 256) :
    (iblk m c 4 t : Vec Ideal S4096x256 .f32) (ix2 k l) = mask m c (ix2 k (tileSite (tileOf t) l)) := by
  obtain ⟨-, -, -, -, -, -, -, e0, e1, -⟩ := block_index t
  unfold iblk
  rw [View.read_apply]
  show V m c main_arg3 _ = _
  rw [V_main_arg3]
  refine congrArg (mask m c) (funext fun a => Fin.ext ?_)
  match a with
  | ⟨0, _⟩ => show win0_4.index t (0 : Fin 2) * 4096 + 1 * k.val = k.val; omega
  | ⟨1, _⟩ => show win0_4.index t (1 : Fin 2) * 256 + 1 * l.val = t.val * 256 + l.val; omega

/-- The partial energies read at coordinates. -/
theorem partials_apply (x : SpinShape.Idx → EReal) (u : FieldShape.Idx → EReal) (J M : PairShape.Idx → EReal)
    (t : Fin 16) (z : Fin 1) (b : Fin 512) : partials x u J M (ix3 t z b) = tileEnergy x u J M t b := rfl

/-- What grid point `t` writes back is row `t` of the partial energies. -/
theorem flushed_eq (c : Dev nD) (t : Fin cfg0.N) :
    (dats m 0 c).flushed 5 t
      = ((cfg0.win 5).blk t).view.read (Elt Ideal) (partials (spins m c) (fields m c) (couplings m c) (mask m c)) := by
  show (cfg0.win 5).cut (grid0.coords t) ((dats m 0 c).after 5 t) = _
  rw [after0_5]
  unfold out0_5
  rw [View.canon_unit_zero zeros3]
  simp only [View.ld_unit_zero (S := S4096x256) zeros2, View.ld_unit_zero (S := S512x4096) zeros2,
    View.ld_unit_zero (S := S512x256) zeros2, View.ld_unit_zero (S := S256) zeros1]
  funext j
  obtain ⟨z0, z1, b, rfl⟩ : ∃ (z0 z1 : Fin 1) (b : Fin 512), j = ix3 z0 z1 b :=
    ⟨j 0, j 1, j 2, eq_ix3 (n0 := 1) (n1 := 1) (n2 := 512) j⟩
  rw [View.read_apply]
  refine (Tile.stored_apply (iblk m c 3 t) (iblk m c 4 t) (iblk m c 0 t) (iblk m c 1 t) (iblk m c 2 t) z0 z1 b).trans ?_
  obtain ⟨-, -, -, -, -, -, -, -, -, e0, e1, e2⟩ := block_index t
  have hemb : ((cfg0.win 5).blk t).view.emb (ix3 z0 z1 b) = ix3 (tileOf t) (0 : Fin 1) b :=
    funext fun a => Fin.ext (by
      match a with
      | ⟨0, _⟩ => show win0_5.index t (0 : Fin 3) * 1 + 1 * z0.val = t.val; omega
      | ⟨1, _⟩ => show win0_5.index t (1 : Fin 3) * 1 + 1 * z1.val = 0; omega
      | ⟨2, _⟩ => show win0_5.index t (2 : Fin 3) * 512 + 1 * b.val = b.val; omega)
  rw [hemb, partials_apply]
  unfold tileEnergy site pairSum
  refine Finset.sum_congr rfl fun l _ => ?_
  rw [tileSpins_apply, tileFields_apply]
  refine congrArg (fun s => s * spins m c (ix2 b (tileSite (tileOf t) l))
    + spins m c (ix2 b (tileSite (tileOf t) l)) * fields m c (ix1 (tileSite (tileOf t) l))) ?_
  refine Finset.sum_congr rfl fun k _ => ?_
  rw [allSpins_apply, tileCouplings_apply, tileMask_apply]

/-- An index of the array is in grid point `t`'s block iff each coordinate is in the block's range on its axis. -/
theorem mem_blk (t : Fin cfg0.N) (i : S16x1x512.Idx) :
    i ∈ ((cfg0.win 5).blk t).view.set ↔ ∀ a : Fin 3, win0_5.index t a * S1x1x512.size a ≤ (i a).val
      ∧ (i a).val < win0_5.index t a * S1x1x512.size a + S1x1x512.size a := by
  show i ∈ ((View.whole main_v1).slice (win0_5.rect t)).set ↔ _
  rw [View.set_slice_whole, Rect.mem_set_unit]
  exact Iff.rfl

/-- The array after the grid has run: the partial energies (row `r` is written back by grid point `r`). -/
theorem final (c : Dev nD) :
    (dats m 0 c).arrAt 5 cfg0.N = partials (spins m c) (fields m c) (couplings m c) (mask m c) :=
  (dats m 0 c).arrAt_eq_of_cover 5 _ (fun t _ => flushed_eq m c t) fun i => by
    have h0 : (i 0).val < 16 := (i 0).isLt
    have h1 : (i 1).val < 1 := (i 1).isLt
    have h2 : (i 2).val < 512 := (i 2).isLt
    obtain ⟨t, ht⟩ : ∃ t : Fin cfg0.N, t.val = (i 0).val := ⟨Fin.cast N_0.symm ⟨(i 0).val, h0⟩, rfl⟩
    obtain ⟨-, -, -, -, -, -, -, -, -, e0, e1, e2⟩ := block_index t
    refine ⟨t, flush0_5 t, ?_⟩
    rw [mem_blk]
    intro a
    match a with
    | ⟨0, _⟩ =>
      show win0_5.index t (0 : Fin 3) * 1 ≤ (i 0).val ∧ (i 0).val < win0_5.index t (0 : Fin 3) * 1 + 1
      omega
    | ⟨1, _⟩ =>
      show win0_5.index t (1 : Fin 3) * 1 ≤ (i 1).val ∧ (i 1).val < win0_5.index t (1 : Fin 3) * 1 + 1
      omega
    | ⟨2, _⟩ =>
      show win0_5.index t (2 : Fin 3) * 512 ≤ (i 2).val ∧ (i 2).val < win0_5.index t (2 : Fin 3) * 512 + 512
      omega

end Cert.Ising.Kernel

end
-- ==== Proof.TileSum.lean ====
/-
  The host's sum of the partial energies over the tile axis and the unit axis is the energy. The host reduction into
  batch row `b` adds, to its initial value, every entry of the [16, 1, 512] array whose last coordinate is `b`: those are
  the 16 entries (t, 0, b), one per tile. From zero, that is the sum over the tiles of row `b`'s partial energies — row
  `b`'s energy.
-/
import proofs.«104117_j3470333575731_2_alg».proof.Proof.Energy
import Idealize.ShloMosaic.PureOps.Reduce
import Idealize.ShloMosaic.PureOps.Ideal.Laws

noncomputable section

open Idealize.ShloMosaic Idealize.ShloMosaic.ValueIdx
open scoped BigOperators

namespace Cert.Ising

/-- A host sum over the first two axes of a [16, 1, 512] array, at `b`: the initial value plus the 16 entries (t, 0, b). -/
theorem hostSum_tiles (h : PartShape.ReducesTo [0, 1] EnergyShape) (P : PartShape.Idx → EReal) (init : EReal)
    (b : Fin 512) : Ideal.hostReduceAdd h P init (ix1 b) = init + ∑ t : Fin 16, P (ix3 t (0 : Fin 1) b) := by
  unfold Ideal.hostReduceAdd
  refine congrArg (init + ·) ?_
  symm
  refine Finset.sum_bij (fun t _ => ix3 t (0 : Fin 1) b) ?_ ?_ ?_ ?_
  · intro t _
    rw [Finset.mem_filter]
    refine ⟨Finset.mem_univ _, funext fun a => Fin.ext ?_⟩
    match a with
    | ⟨0, _⟩ => exact h.drop_apply_val_of_eq (ix3 t (0 : Fin 1) b) 0 2
  · intro t₁ _ t₂ _ e
    exact congrFun e 0
  · intro i hi
    rw [Finset.mem_filter] at hi
    have hb : (i 2).val = b.val :=
      (h.drop_apply_val_of_eq i 0 2).symm.trans (congrArg (fun j : EnergyShape.Idx => (j 0).val) hi.2)
    have h1 : (i 1).val < 1 := (i 1).isLt
    refine ⟨⟨(i 0).val, (i 0).isLt⟩, Finset.mem_univ _, funext fun a => Fin.ext ?_⟩
    match a with
    | ⟨0, _⟩ => rfl
    | ⟨1, _⟩ => show 0 = (i 1).val; omega
    | ⟨2, _⟩ => exact hb.symm
  · intro t _
    rfl

/-- The host's sum, from zero, of the partial energies over the tile axis and the unit axis is the energy. -/
theorem hostSum_partials (h : PartShape.ReducesTo [0, 1] EnergyShape) (x : SpinShape.Idx → EReal)
    (u : FieldShape.Idx → EReal) (J M : PairShape.Idx → EReal) :
    Ideal.hostReduceAdd h (partials x u J M) (Ideal.ofBits .f32 0x00000000#32) = energy x u J M := by
  funext i
  obtain ⟨b, rfl⟩ : ∃ b : Fin 512, i = ix1 b := ⟨i 0, eq_ix1 i⟩
  rw [hostSum_tiles, Ideal.ofBits_zero_f32, zero_add]
  exact sum_tileEnergy x u J M b

end Cert.Ising

end
-- ==== Proof.EnergyRun.lean ====
/-
  The kernel program's run, read: after the grid has left the partial energies in the [16, 1, 512] array, the host sums
  that array over its first two axes from zero, and the result is the energy of the argument arrays; the argument arrays
  are as launched.
-/
import proofs.«104117_j3470333575731_2_alg».proof.Proof.TileArray
import proofs.«104117_j3470333575731_2_alg».proof.Proof.TileSum

noncomputable section

open Idealize.ShloMosaic Idealize.ShloMosaic.TcCoe Idealize.SL.Sem Idealize.ShloMosaic.ValueIdx
open Idealize.ShloMosaic.Pipeline (Dat)

namespace Cert.Ising.Kernel

open Cert.KernelIdeal Cert.KernelIdeal.Gen Cert.Ising

variable (m : (ℓ : Loc nD τ sig) → Buf (Elt Ideal) ℓ) (ρ : Dev nD → PrngReg)

/-- The result buffer is none of the grid's arrays: the host operations after the grid decide its contents. -/
theorem result_rest : main_v2 ∈ Pipeline.restRefs sig (cfgs (0 : Fin 1)).spec :=
  Pipeline.mem_restRefs_of main_v2 rfl (by decide)

/-- What the host operations after the grid leave in the result buffer: the sum of the partial energies over the tiles,
    the energy. -/
theorem tail_eq (c : Dev nD) :
    Pipeline.afterTail₀ cfgs (dats m) 0 (V0 m) [hostOps1] c main_v2
      = energy (spins m c) (fields m c) (couplings m c) (mask m c) := by
  unfold Pipeline.afterTail₀
  show StableHlo.after hostOps1 _ (Proc.devRef .tc main_v2) = _
  after_results
  have harr : Pipeline.withArrays (cfgs 0).spec c (V0 m c) (fun w => (dats m 0 c).arrAt w (cfgs 0).N)
      (Proc.devRef .tc main_v1) = partials (spins m c) (fields m c) (couplings m c) (mask m c) :=
    (Pipeline.withArrays_arr spec0 launch0.win.arr_inj c _ _ 5).trans (final m c)
  rw [harr]
  exact hostSum_partials _ _ _ _ _

/-- Every weakly fair execution of the kernel program terminates with the result buffer at the energy of the argument
    arrays and the argument arrays unchanged. -/
theorem run : θ_run defs (onTc (τ := τ) (main (F := Ideal))) ⟨m, fun _ => 0, ρ⟩ fun r => ∀ c : Dev nD,
      r.2.mem ((c.tc : Thread nD τ).loc main_v2) = energy (spins m c) (fields m c) (couplings m c) (mask m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v2 result_rest).trans (tail_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩)
    (run_main m ρ)

end Cert.Ising.Kernel

end
-- ==== Proof.lean ====
/-
  The kernel and its reference compute one function of the spins `x`, the fields `u`, the couplings `J` and their mask
  `M`: for each batch row `b` the energy
      E[b] = ∑ₙ ( (∑ₖ x[b,k] · (J[k,n] · M[k,n])) · x[b,n]  +  x[b,n] · u[n] ).
  The reference forms the field term and the pair term of every site over whole arrays and sums each row from zero.
  The kernel cuts the 4096 sites into 16 tiles of 256, has grid point `t` sum tile `t`'s contributions for every row (the
  pair term by a matrix product of all the spins against the tile's columns of the masked couplings), and sums the 16
  partial energies on the host. Over the extended reals the two agree index by index: a site's two summands commute, the
  changes of float format are the identity, and a sum over the sites regroups by tiles, for which addition need only be
  commutative and associative — so the inputs' finiteness is not used. The idealization rewrote no operation, so the
  kernel's sanctioned idealization is the kernel's own text.
-/
import proofs.«104117_j3470333575731_2_alg».proof.Defs
import proofs.«104117_j3470333575731_2_alg».proof.Proof.Gen.Kernel
import proofs.«104117_j3470333575731_2_alg».proof.Proof.Gen.Kernel.Skeleton
import proofs.«104117_j3470333575731_2_alg».proof.Proof.Gen.Kernel.Launch
import proofs.«104117_j3470333575731_2_alg».proof.Proof.Gen.Kernel.Points
import proofs.«104117_j3470333575731_2_alg».proof.Proof.Gen.Kernel.Frame
import proofs.«104117_j3470333575731_2_alg».proof.Proof.Gen.KernelIdeal
import proofs.«104117_j3470333575731_2_alg».proof.Proof.Gen.KernelIdeal.Skeleton
import proofs.«104117_j3470333575731_2_alg».proof.Proof.Gen.KernelIdeal.Launch
import proofs.«104117_j3470333575731_2_alg».proof.Proof.Gen.KernelIdeal.Points
import proofs.«104117_j3470333575731_2_alg».proof.Proof.Gen.KernelIdeal.Frame
import proofs.«104117_j3470333575731_2_alg».proof.Proof.Gen.ReferenceIdeal
import proofs.«104117_j3470333575731_2_alg».proof.Proof.Gen.Pre_finite_inputs
import proofs.«104117_j3470333575731_2_alg».proof.Proof.Gen.ReferenceIdeal.Run
import proofs.«104117_j3470333575731_2_alg».proof.Proof.Gen.ReferenceIdeal.Read
import proofs.«104117_j3470333575731_2_alg».proof.Proof.RefEnergy
import proofs.«104117_j3470333575731_2_alg».proof.Proof.EnergyRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the energy of those arguments in their result. -/
theorem algebraic : Cert.algebraic_KernelIdeal_ReferenceIdeal := by
  intro m ρ m' ρ' _ hagree
  refine ⟨fun c => Cert.Ising.energy (Cert.Ising.Kernel.spins m c) (Cert.Ising.Kernel.fields m c)
    (Cert.Ising.Kernel.couplings m c) (Cert.Ising.Kernel.mask m c), Cert.Ising.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq (F := Ideal) _ _ _ _).trans ?_
  refine (Cert.Ising.Reference.result_eq _ _ _ _).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
